-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S4096x256 : Shape := ⟨2, ![4096, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x4096 : Shape := ⟨2, ![256, 4096]⟩
abbrev S1x256x256 : Shape := ⟨3, ![1, 256, 256]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x256, .f32⟩
  | .hbm, ⟨8, _⟩ => ⟨S4096x256, .bf16⟩
  | .hbm, ⟨9, _⟩ => ⟨S1024x1024, .f32⟩
  | .hbm, ⟨10, _⟩ => ⟨S4096x256, .f32⟩
  | .hbm, ⟨11, _⟩ => ⟨S4096x256, .bf16⟩
  | .hbm, ⟨12, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S4096x256, .bf16⟩
  | .local _ .vmem, ⟨5, _⟩ => ⟨S4096x256, .bf16⟩
  | .local _ .vmem, ⟨6, _⟩ => ⟨S1x256x1024, .f32⟩
  | .local _ .vmem, ⟨7, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1024_S1x1024 : S1024.ShapeCasts S1x1024
  shapeCasts_S1024x1024_S4096x256 : S1024x1024.ShapeCasts S4096x256
  bitsLt_bf16_f32 : FTy.bits .bf16 < FTy.bits .f32
  transposes_S1024x1024_S1024x1024_1_0 : S1024x1024.Transposes [1, 0] S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  slices_S256x1024_o0_0_S256x256 : S256x1024.Slices ![0, 0] S256x256
  inb_S1x256x1024_S1x256x256_0_0_0 : ∀ a, (![0, 0, 0] : Fin 3 → Nat) a + S1x256x256.size a ≤ S1x256x1024.size a
  h_S1x256x256 : 0 < S1x256x256.numel
  shapeCasts_S1x256x256_S256x256 : S1x256x256.ShapeCasts S256x256
  shapeCasts_S256x256_S1x256x256 : S256x256.ShapeCasts S1x256x256
  slices_S256x1024_o0_256_S256x256 : S256x1024.Slices ![0, 256] S256x256
  inb_S1x256x1024_S1x256x256_0_0_256 : ∀ a, (![0, 0, 256] : Fin 3 → Nat) a + S1x256x256.size a ≤ S1x256x1024.size a
  slices_S256x1024_o0_512_S256x256 : S256x1024.Slices ![0, 512] S256x256
  inb_S1x256x1024_S1x256x256_0_0_512 : ∀ a, (![0, 0, 512] : Fin 3 → Nat) a + S1x256x256.size a ≤ S1x256x1024.size a
  slices_S256x1024_o0_768_S256x256 : S256x1024.Slices ![0, 768] S256x256
  inb_S1x256x1024_S1x256x256_0_0_768 : ∀ a, (![0, 0, 768] : Fin 3 → Nat) a + S1x256x256.size a ≤ S1x256x1024.size a
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .bf16 = 32 ∨ (Rect.block (s := S4096x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .bf16 = 32 ∨ (Rect.block (s := S4096x256) S4096x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x2048x1024.size a
  hwx0_5 : ∀ i : grid0.Coords, EltTy.bits .f32 = 32 ∨ (Rect.block (s := S4x2048x1024) S1x256x1024.size (cc0_transform_5 i) (hinb0_5 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4x256 : Shape := ⟨4, ![4, 2048, 4, 256]⟩
abbrev S4x4x2048x256 : Shape := ⟨4, ![4, 4, 2048, 256]⟩
abbrev S4096x256 : Shape := ⟨2, ![4096, 256]⟩
abbrev S4x4x2048x4096 : Shape := ⟨4, ![4, 4, 2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x4x256, .f32⟩
  | .hbm, ⟨35, _⟩ => ⟨S4x4x2048x256, .f32⟩
  | .hbm, ⟨36, _⟩ => ⟨S4096x256, .f32⟩
  | .hbm, ⟨37, _⟩ => ⟨S1024x1024, .f32⟩
  | .hbm, ⟨38, _⟩ => ⟨S4096x256, .f32⟩
  | .hbm, ⟨39, _⟩ => ⟨S4x4x2048x4096, .f32⟩
  | .hbm, ⟨40, _⟩ => ⟨S_, .f32⟩
  | .hbm, ⟨41, _⟩ => ⟨S4x4x2048x4096, .f32⟩
  | .hbm, ⟨42, _⟩ => ⟨S4x4x2048x4096, .f32⟩
  | .hbm, ⟨43, _⟩ => ⟨S4x4x2048x4096, .f32⟩
  | .hbm, ⟨44, _⟩ => ⟨S4x4x2048x256, .f32⟩
  | .hbm, ⟨45, _⟩ => ⟨S4x2048x4x256, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x4x256 : S4x2048x1024.ShapeCasts S4x2048x4x256
  transposes_S4x2048x4x256_S4x4x2048x256_0_2_1_3 : S4x2048x4x256.Transposes [0, 2, 1, 3] S4x4x2048x256
  shapeCasts_S1024x1024_S4096x256 : S1024x1024.ShapeCasts S4096x256
  transposes_S1024x1024_S1024x1024_1_0 : S1024x1024.Transposes [1, 0] S1024x1024
  bcast_S_S4x4x2048x4096 : S_.BroadcastsInDim S4x4x2048x4096 (![] : Fin 0 → Fin S4x4x2048x4096.rank)
  transposes_S4x4x2048x256_S4x2048x4x256_0_2_1_3 : S4x4x2048x256.Transposes [0, 2, 1, 3] S4x2048x4x256
  shapeCasts_S4x2048x4x256_S4x2048x1024 : S4x2048x4x256.ShapeCasts S4x2048x1024
  dot_S4x4x2048x256_S4096x256_S4x4x2048x4096_3_1_012_0_n_n_wf : DotDims.WF S4x4x2048x256 S4096x256 S4x4x2048x4096 [3] [1] [0, 1, 2] [0] [] []
  dot_S4x4x2048x4096_S4096x256_S4x4x2048x256_3_0_012_1_n_n_wf : DotDims.WF S4x4x2048x4096 S4096x256 S4x4x2048x256 [3] [0] [0, 1, 2] [1] [] []

variable [Facts₀]

def dot_S4x4x2048x256_S4096x256_S4x4x2048x4096_3_1_012_0_n_n : DotDims S4x4x2048x256 S4096x256 S4x4x2048x4096 where
  lhsContracting := [3]
  rhsContracting := [1]
  lhsNonContracting := [0, 1, 2]
  rhsNonContracting := [0]
  lhsBatch := []
  rhsBatch := []
  wf := dot_S4x4x2048x256_S4096x256_S4x4x2048x4096_3_1_012_0_n_n_wf
def dot_S4x4x2048x4096_S4096x256_S4x4x2048x256_3_0_012_1_n_n : DotDims S4x4x2048x4096 S4096x256 S4x4x2048x256 where
  lhsContracting := [3]
  rhsContracting := [0]
  lhsNonContracting := [0, 1, 2]
  rhsNonContracting := [1]
  lhsBatch := []
  rhsBatch := []
  wf := dot_S4x4x2048x4096_S4096x256_S4x4x2048x256_3_0_012_1_n_n_wf

class Facts : Prop extends Facts₀ where

variable [Facts]
-- ==== Proof.Spec.lean ====
/-
  The function both programs compute, stated once over the extended reals.

  A row x of 1024 numbers is normalised: with mean(x) = (Σ_k x_k) / 1024 and var(x) = (Σ_k (x_k - mean)²) / 1024,
  ln(x, g, b)_c = (x_c - mean) · rsqrt(var + ε) · g_c + b_c.  The 1024 lanes are four heads of 256: lane (h, d) = 256·h + d.
  For a head's 256 normalised lanes q and two 4096 × 256 matrices K, V,
  score(q, K)_s = Σ_d q_d · K(s, d) and attn(q, K, V)_d' = Σ_s max(score_s, 0)² · V(s, d').
  From a row x the result at lane 256·h + d' is x_(256·h + d') + attn(head h of ln(x), K, V)_d'; the result array at (b, t, c) is that of row (b, t) of X at lane c.
  The three literals (1024, ε, 0) are kept as the words the programs print: the same word on both sides is never evaluated.
-/
import Idealize.ShloMosaic.PureOps.Ideal
import Idealize.ShloMosaic.Lib.ValueIdx

noncomputable section

namespace Cert.Spec

open Idealize.ShloMosaic Idealize.ShloMosaic.ValueIdx
open scoped BigOperators

/-- The activations' shape, the two weight matrices' shape once cut into 4096 rows of 256, and a row vector's. -/
abbrev SX : Shape := ⟨3, ![4, 2048, 1024]⟩
abbrev SW : Shape := ⟨2, ![4096, 256]⟩
abbrev SV : Shape := ⟨1, ![1024]⟩

/-- The divisor 1024, the ε of the normalisation and the zero of the rectifier, as the printed words' values. -/
def c1024 : EReal := Ideal.ofBits .f32 0x44800000#32
def ceps : EReal := Ideal.ofBits .f32 0x3727C5AC#32
def czero : EReal := Ideal.ofBits .f32 0x00000000#32

/-- A row's mean and variance, both by the quotient by 1024. -/
def mean (x : Fin 1024 → EReal) : EReal := Ideal.div (∑ k, x k) c1024
def var (x : Fin 1024 → EReal) : EReal := Ideal.div (∑ k, (x k - mean x) * (x k - mean x)) c1024

/-- The normalised row, scaled by g and shifted by b, at lane c. -/
def ln (x g b : Fin 1024 → EReal) (c : Fin 1024) : EReal :=
  (x c - mean x) * Ideal.rsqrt (var x + ceps) * g c + b c

/-- Lane d of head h. -/
def lane (h : Fin 4) (d : Fin 256) : Fin 1024 := ⟨256 * h.val + d.val, by omega⟩

/-- A head's score against row s of K. -/
def score (q : Fin 256 → EReal) (K : SW.Idx → EReal) (s : Fin 4096) : EReal := ∑ d : Fin 256, q d * K (ix2 s d)

/-- The rectified scores squared, weighted onto column d' of V. -/
def attn (q : Fin 256 → EReal) (K V : SW.Idx → EReal) (d' : Fin 256) : EReal :=
  ∑ s : Fin 4096, (max (score q K s) czero * max (score q K s) czero) * V (ix2 s d')

/-- From one row x (with the scale g, the shift b and the matrices K, V): the result at head h, lane d'. -/
def Hrow (x g b : Fin 1024 → EReal) (K V : SW.Idx → EReal) (h : Fin 4) (d' : Fin 256) : EReal :=
  x (lane h d') + attn (fun d => ln x g b (lane h d)) K V d'

/-- The same at lane c of the 1024: the head is c / 256 and the lane within it c % 256. -/
def Grow (x g b : Fin 1024 → EReal) (K V : SW.Idx → EReal) (c : Fin 1024) : EReal :=
  Hrow x g b K V ⟨c.val / 256, by omega⟩ ⟨c.val % 256, by omega⟩

/-- At a lane given by its head and position, Grow is Hrow there. -/
theorem Grow_lane (x g b : Fin 1024 → EReal) (K V : SW.Idx → EReal) (h : Fin 4) (d' : Fin 256) :
    Grow x g b K V (lane h d') = Hrow x g b K V h d' := by
  unfold Grow
  have e1 : (⟨(lane h d').val / 256, by have := (lane h d').isLt; omega⟩ : Fin 4) = h :=
    Fin.ext (by show (256 * h.val + d'.val) / 256 = h.val; omega)
  have e2 : (⟨(lane h d').val % 256, by omega⟩ : Fin 256) = d' :=
    Fin.ext (by show (256 * h.val + d'.val) % 256 = d'.val; omega)
  rw [e1, e2]

/-- The result array: entry (b, t, c) is Grow of row (b, t) of X at lane c. -/
def G (X : SX.Idx → EReal) (K V : SW.Idx → EReal) (g b : SV.Idx → EReal) : SX.Idx → EReal := fun i =>
  Grow (fun k => X (ix3 (i 0) (i 1) k)) (fun k => g (ix1 k)) (fun k => b (ix1 k)) K V (i 2)

/-- G at an index written by its coordinates. -/
theorem G_ix3 (X : SX.Idx → EReal) (K V : SW.Idx → EReal) (g b : SV.Idx → EReal) (bb : Fin 4) (t : Fin 2048) (c : Fin 1024) :
    G X K V g b (ix3 bb t c) = Grow (fun k => X (ix3 bb t k)) (fun k => g (ix1 k)) (fun k => b (ix1 k)) K V c := rfl

end Cert.Spec

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.KernelRow.lean ====
/-
  The kernel's normalisation read at an index.

  The body views its 1 × 256 × 1024 block as 256 rows of 1024 lanes. A lane sum of row r is the sum over the row's 1024
  entries; dividing by 1024 gives the row's mean, spread back over the row through a 256 × 1 column; the same once more
  on the squared deviations gives the variance. So the value the body feeds the heads, at row r and lane c, is the
  specification's ln of row r of the block, with the scale and shift read from the two 1 × 1024 rows.
-/
import proofs.«125311_j56023553409274_2_alg».proof.Proof.Gen.KernelIdeal.Skeleton
import proofs.«125311_j56023553409274_2_alg».proof.Proof.Spec
import proofs.«125311_j56023553409274_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.RowValue

open Cert.KernelIdeal Cert.KernelIdeal.Gen Idealize.ShloMosaic Idealize.ShloMosaic.ValueIdx Idealize.ShloMosaic.Keepdims
open scoped BigOperators

/-- A lane sum of a 256 × 1024 matrix, at row r, is the sum of the row's entries (the accumulator is the zero word,
    the neutral element of the sum). -/
theorem rowsum_apply (v : FVec Ideal S256x1024 .f32) (hφ : FTy.f32 = FTy.f32 ∨ FTy.f32 = FTy.bf16)
    (hacc : (0#32 : BitVec 32) = 0#32) (r : Fin 256) :
    multiReduction .add [1] S256 v 0#32 reduces_S256x1024_S256 hφ hacc (ix1 r) = ∑ k : Fin 1024, v (ix2 r k) := by
  refine (Ideal.multiReduction_add_single v 0#32 reduces_S256x1024_S256 hφ hacc (ix1 r)).trans ?_
  refine Finset.sum_congr rfl fun k _ => congrArg v (funext fun a => Fin.ext ?_)
  match a with
  | ⟨0, _⟩ => rfl
  | ⟨1, _⟩ => rfl

/-- The reciprocal square root of a vector, entry by entry. -/
theorem rsqrt_apply {s : Shape} {φ : FTy} (a : FVec Ideal s φ) (i : s.Idx) : rsqrt a i = Ideal.rsqrt (a i) := rfl

/-- The block viewed as 256 rows: entry (r, k) is the block's (0, r, k). -/
theorem pay2_apply (x0 : Vec Ideal S1x256x1024 .f32) (r : Fin 256) (k : Fin 1024) :
    k0_pay2 x0 (ix2 r k) = x0 (ix3 (0 : Fin 1) r k) := by
  unfold k0_pay2
  exact shapeCast_1ab_ab_apply x0 _ r k

/-- The normalised, scaled and shifted block at (r, c) is ln of row r at lane c. -/
theorem ln_apply (x0 : Vec Ideal S1x256x1024 .f32) (v20 v24 : Vec Ideal S1x1024 .f32) (r : Fin 256) (c : Fin 1024) :
    k0_pay3 x0 v20 v24 (ix2 r c)
      = Spec.ln (fun k => x0 (ix3 (0 : Fin 1) r k)) (fun k => v20 (ix2 (0 : Fin 1) k)) (fun k => v24 (ix2 (0 : Fin 1) k)) c := by
  unfold k0_pay3
  simp only [truncf_apply, addf_apply, mulf_apply, subf_apply]
  rw [broadcastTo_a1_ab_apply, broadcastTo_a1_ab_apply, broadcastTo_1b_ab_apply, broadcastTo_1b_ab_apply,
    shapeCast_self, shapeCast_self]
  simp only [divf_apply, broadcast_apply]
  rw [shapeCast_a_a1_apply]
  simp only [rsqrt_apply, addf_apply, divf_apply, broadcast_apply, shapeCast_a_a1_apply]
  rw [rowsum_apply (k0_pay2 x0), rowsum_apply]
  simp only [mulf_apply, subf_apply, divf_apply, broadcast_apply, broadcastTo_a1_ab_apply, shapeCast_a_a1_apply]
  rw [rowsum_apply (k0_pay2 x0)]
  simp only [pay2_apply]
  unfold Spec.ln Spec.var Spec.mean Spec.c1024 Spec.ceps
  rfl

end Cert.KernelIdeal.RowValue

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.KernelHead.lean ====
/-
  One head of the kernel's body read at an index.

  For the 256 lanes of the block starting at lane o, the body takes the normalised block's lanes o … o + 255 as q,
  multiplies q by the transpose of K (4096 × 256) into a zero accumulator, takes the maximum with zero, squares it,
  multiplies the result by V (4096 × 256) into a zero accumulator and adds the block's own lanes o … o + 255.
  At row r and lane d' of the head that is x(r, o + d') + Σ_s max(Σ_d q(r, o + d) · K(s, d), 0)² · V(s, d'):
  the specification's attn of the row's 256 lanes. The four stores of the body are this at o = 0, 256, 512, 768.
-/
import proofs.«125311_j56023553409274_2_alg».proof.Proof.Gen.KernelIdeal.Skeleton
import proofs.«125311_j56023553409274_2_alg».proof.Proof.Spec
import proofs.«125311_j56023553409274_2_alg».proof.Proof.LibMatmulRows
import proofs.«125311_j56023553409274_2_alg».proof.Proof.LibMatmulNT
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.HeadValue

open Cert.KernelIdeal Cert.KernelIdeal.Gen Idealize.ShloMosaic Idealize.ShloMosaic.ValueIdx
open scoped BigOperators

/-- The two products' dimension numbers: q against the rows of K (both contract their axis 1), and the squared
    scores against V (axis 1 against axis 0). -/
abbrev dQK := dot_S256x256_S4096x256_S256x4096_1_1_0_0_n_n
abbrev dPV := dot_S256x4096_S4096x256_S256x256_1_0_0_1_n_n

/-- The free axes of the two products: the result's row is the left operand's row, its column the right operand's
    free axis. -/
theorem dQK_l0 (i : S256x4096.Idx) (q : dQK.contr.Idx) : (dQK.lhsIdx i q 0).val = (i 0).val := by
  unfold DotDims.lhsIdx
  rw [dif_neg (show ¬(0 : Fin S256x256.rank) ∈ dQK.lhsBatch by decide), dif_pos (show (0 : Fin S256x256.rank) ∈ dQK.lhsNonContracting by decide)]
  rfl
theorem dQK_r0 (i : S256x4096.Idx) (q : dQK.contr.Idx) : (dQK.rhsIdx i q 0).val = (i 1).val := by
  unfold DotDims.rhsIdx
  rw [dif_neg (show ¬(0 : Fin S4096x256.rank) ∈ dQK.rhsBatch by decide), dif_pos (show (0 : Fin S4096x256.rank) ∈ dQK.rhsNonContracting by decide)]
  rfl
theorem dPV_l0 (i : S256x256.Idx) (q : dPV.contr.Idx) : (dPV.lhsIdx i q 0).val = (i 0).val := by
  unfold DotDims.lhsIdx
  rw [dif_neg (show ¬(0 : Fin S256x4096.rank) ∈ dPV.lhsBatch by decide), dif_pos (show (0 : Fin S256x4096.rank) ∈ dPV.lhsNonContracting by decide)]
  rfl
theorem dPV_r1 (i : S256x256.Idx) (q : dPV.contr.Idx) : (dPV.rhsIdx i q 1).val = (i 1).val := by
  unfold DotDims.rhsIdx
  rw [dif_neg (show ¬(1 : Fin S4096x256.rank) ∈ dPV.rhsBatch by decide), dif_pos (show (1 : Fin S4096x256.rank) ∈ dPV.rhsNonContracting by decide)]
  rfl

/-- The scores of the head at lane offset o: q · Kᵀ into zero, rectified, squared. -/
def scores (o : Nat) (hs : S256x1024.Slices ![0, o] S256x256) (v28 : FVec Ideal S256x1024 .bf16) (v30 : FVec Ideal S4096x256 .bf16) :
    FVec Ideal S256x4096 .bf16 :=
  truncf .bf16
    (mulf
      (maximumf (matmul dQK none (extractStridedSlice S256x256 ![0, o] v28 hs) v30 (constant (F := Ideal) S256x4096 .f32 0x00000000#32))
        (broadcast S256x4096 (Scalar.ofBits (F := Ideal) .f32 0x00000000#32)))
      (maximumf (matmul dQK none (extractStridedSlice S256x256 ![0, o] v28 hs) v30 (constant (F := Ideal) S256x4096 .f32 0x00000000#32))
        (broadcast S256x4096 (Scalar.ofBits (F := Ideal) .f32 0x00000000#32))))
    bitsLt_bf16_f32

/-- The head at lane offset o: the block's own lanes plus the squared scores times V. -/
def head (o : Nat) (hs : S256x1024.Slices ![0, o] S256x256) (v1 : FVec Ideal S256x1024 .f32) (v28 : FVec Ideal S256x1024 .bf16)
    (v30 v32 : FVec Ideal S4096x256 .bf16) : FVec Ideal S256x256 .f32 :=
  addf (extractStridedSlice S256x256 ![0, o] v1 hs)
    (matmul dPV none (scores o hs v28 v30) v32 (constant (F := Ideal) S256x256 .f32 0x00000000#32))

/-- The body's four stored values are the head at the four lane offsets, each given a leading unit axis. -/
theorem pay7_eq (x0 : Vec Ideal S1x256x1024 .f32) (v20 v24 : Vec Ideal S1x1024 .f32) (v29 : Vec Ideal S4096x256 .bf16)
    (v32 : FVec Ideal S4096x256 .bf16) :
    k0_pay7 (k0_pay2 x0) v32 (k0_pay6 x0 v20 v24 v29) (constant S256x256 .f32 0x00000000#32)
      = shapeCast S1x256x256 (head 0 slices_S256x1024_o0_0_S256x256 (k0_pay2 x0) (k0_pay3 x0 v20 v24) (k0_pay4 v29) v32)
          shapeCasts_S256x256_S1x256x256 := rfl
theorem pay8_eq (v1 : FVec Ideal S256x1024 .f32) (v28 : FVec Ideal S256x1024 .bf16) (v30 v32 : FVec Ideal S4096x256 .bf16) :
    k0_pay8 v1 v28 v30 v32
      = shapeCast S1x256x256 (head 256 slices_S256x1024_o0_256_S256x256 v1 v28 v30 v32) shapeCasts_S256x256_S1x256x256 := rfl
theorem pay9_eq (v1 : FVec Ideal S256x1024 .f32) (v28 : FVec Ideal S256x1024 .bf16) (v30 v32 : FVec Ideal S4096x256 .bf16) :
    k0_pay9 v1 v28 v30 v32
      = shapeCast S1x256x256 (head 512 slices_S256x1024_o0_512_S256x256 v1 v28 v30 v32) shapeCasts_S256x256_S1x256x256 := rfl
theorem pay10_eq (v1 : FVec Ideal S256x1024 .f32) (v28 : FVec Ideal S256x1024 .bf16) (v30 v32 : FVec Ideal S4096x256 .bf16) :
    k0_pay1 (k0_pay10 v1 v28 v30 v32)
      = shapeCast S1x256x256 (head 768 slices_S256x1024_o0_768_S256x256 v1 v28 v30 v32) shapeCasts_S256x256_S1x256x256 := rfl

/-- The scores at (r, s): the rectified score of the row's lanes o … o + 255 against row s of K, squared. -/
theorem scores_apply (o : Nat) (hs : S256x1024.Slices ![0, o] S256x256) (v28 : FVec Ideal S256x1024 .bf16)
    (v30 : FVec Ideal S4096x256 .bf16) (ln : Fin 256 → Fin 1024) (hl : ∀ d, (ln d).val = o + d.val) (r : Fin 256) (s : Fin 4096) :
    scores o hs v28 v30 (ix2 r s)
      = max (Spec.score (fun d => v28 (ix2 r (ln d))) v30 s) Spec.czero * max (Spec.score (fun d => v28 (ix2 r (ln d))) v30 s) Spec.czero := by
  have hmm : matmul dQK none (extractStridedSlice S256x256 ![0, o] v28 hs) v30 (constant (F := Ideal) S256x4096 .f32 0x00000000#32) (ix2 r s)
      = Spec.score (fun d => v28 (ix2 r (ln d))) v30 s := by
    refine (MatmulNT.matmul_zero_apply dQK none rfl rfl rfl rfl dQK_l0 dQK_r0 _ v30 (ix2 r s)).trans ?_
    unfold Spec.score
    refine Finset.sum_congr rfl fun d _ => ?_
    exact congrArg (· * v30 (ix2 s d)) (slice2_axis1_apply o v28 hs r d (ln d) (hl d))
  unfold scores
  show max (matmul dQK none (extractStridedSlice S256x256 ![0, o] v28 hs) v30 (constant (F := Ideal) S256x4096 .f32 0x00000000#32) (ix2 r s)) Spec.czero
      * max (matmul dQK none (extractStridedSlice S256x256 ![0, o] v28 hs) v30 (constant (F := Ideal) S256x4096 .f32 0x00000000#32) (ix2 r s)) Spec.czero = _
  rw [hmm]

/-- The head at (r, d'): the block's lane o + d' of row r plus attn of the row's lanes o … o + 255. -/
theorem head_apply (o : Nat) (hs : S256x1024.Slices ![0, o] S256x256) (v1 : FVec Ideal S256x1024 .f32) (v28 : FVec Ideal S256x1024 .bf16)
    (v30 v32 : FVec Ideal S4096x256 .bf16) (ln : Fin 256 → Fin 1024) (hl : ∀ d, (ln d).val = o + d.val) (r d' : Fin 256) :
    head o hs v1 v28 v30 v32 (ix2 r d')
      = v1 (ix2 r (ln d')) + Spec.attn (fun d => v28 (ix2 r (ln d))) v30 v32 d' := by
  unfold head
  show extractStridedSlice S256x256 ![0, o] v1 hs (ix2 r d')
      + matmul dPV none (scores o hs v28 v30) v32 (constant (F := Ideal) S256x256 .f32 0x00000000#32) (ix2 r d') = _
  rw [slice2_axis1_apply o v1 hs r d' (ln d') (hl d')]
  refine congrArg (v1 (ix2 r (ln d')) + ·) ?_
  refine (MatmulRows.matmul_zero_apply dPV none rfl rfl rfl rfl dPV_l0 dPV_r1 (scores o hs v28 v30) v32 (ix2 r d')).trans ?_
  unfold Spec.attn
  refine Finset.sum_congr rfl fun s _ => ?_
  exact congrArg (· * v32 (ix2 s d')) (scores_apply o hs v28 v30 ln hl r s)

end Cert.KernelIdeal.HeadValue

end
-- ==== Proof.KernelBlock.lean ====
/-
  What the body leaves in its output block, as one function of its five input blocks.

  The body stores four pieces, one per head: the piece of head h is the rectangle of lanes 256·h … 256·h + 255 of the
  1 × 256 × 1024 block, and its value at (0, r, d') is the head's value at (r, d'). Each piece therefore agrees with
  ONE function of the block index: at (0, r, c) the specification's Grow of row r of the input block at lane c, with
  the scale and shift rows and the two 4096 × 256 matrices as loaded. The pieces tile the block, so the block is that
  function.
-/
import proofs.«125311_j56023553409274_2_alg».proof.Proof.Gen.KernelIdeal.Frame
import proofs.«125311_j56023553409274_2_alg».proof.Proof.KernelRow
import proofs.«125311_j56023553409274_2_alg».proof.Proof.KernelHead
import Idealize.ShloMosaic.Lib.Pipeline.Value
import Idealize.ShloMosaic.Lib.ValueIdx
import Idealize.ShloMosaic.Lib.ValueLayout

noncomputable section

namespace Cert.KernelIdeal.BlockValue

open Cert.KernelIdeal Cert.KernelIdeal.Gen Idealize.ShloMosaic Idealize.ShloMosaic.ValueIdx
open Cert.KernelIdeal.RowValue Cert.KernelIdeal.HeadValue

/-- The output block as a function of the input blocks: at (u, r, c), Grow of row r of the first block at lane c. -/
def blockVal (x0 : Vec Ideal S1x256x1024 .f32) (x1 x2 : Vec Ideal S1x1024 .f32) (x3 x4 : Vec Ideal S4096x256 .bf16) :
    Vec Ideal S1x256x1024 .f32 := fun y =>
  Spec.Grow (fun k => x0 (ix3 (0 : Fin 1) (y 1) k)) (fun k => x1 (ix2 (0 : Fin 1) k)) (fun k => x2 (ix2 (0 : Fin 1) k)) x3 x4 (y 2)

/-- The rectangle of lanes o … o + 255 sends its local index (u, r, d') to the block index (0, r, o + d'). -/
theorem emb_piece (o : Nat) (inb : ∀ a, (![0, 0, o] : Fin 3 → Nat) a + S1x256x256.size a ≤ S1x256x1024.size a)
    (u : Fin 1) (r d' : Fin 256) (c : Fin 1024) (hc : c.val = o + d'.val) :
    (Rect.unit (s := S1x256x1024) ![0, 0, o] S1x256x256.size inb).emb (ix3 u r d') = ix3 (0 : Fin 1) r c := by
  funext a
  apply Fin.ext
  simp only [Rect.emb_apply, Rect.off_unit, Rect.stride_unit]
  match a with
  | ⟨0, _⟩ => show 0 + 1 * u.val = 0; omega
  | ⟨1, _⟩ => show 0 + 1 * r.val = r.val; omega
  | ⟨2, _⟩ => show o + 1 * d'.val = c.val; omega

/-- The two matrices are loaded whole and cast to their own shape: unchanged. -/
theorem pay4_eq (x3 : Vec Ideal S4096x256 .bf16) : k0_pay4 x3 = x3 := by
  unfold k0_pay4; exact shapeCast_self _ _
theorem pay5_eq (x4 : Vec Ideal S4096x256 .bf16) : k0_pay5 x4 = x4 := by
  unfold k0_pay5; exact shapeCast_self _ _

/-- The stored value of head h at local index (u, r, d') is the block function at (0, r, lane d' of head h). -/
theorem piece_apply (o : Nat) (hs : S256x1024.Slices ![0, o] S256x256) (h : Fin 4) (ho : o = 256 * h.val)
    (x0 : Vec Ideal S1x256x1024 .f32) (x1 x2 : Vec Ideal S1x1024 .f32) (x3 x4 : Vec Ideal S4096x256 .bf16)
    (u : Fin 1) (r d' : Fin 256) :
    shapeCast S1x256x256 (head o hs (k0_pay2 x0) (k0_pay3 x0 x1 x2) (k0_pay4 x3) (k0_pay5 x4)) shapeCasts_S256x256_S1x256x256 (ix3 u r d')
      = blockVal x0 x1 x2 x3 x4 (ix3 (0 : Fin 1) r (Spec.lane h d')) := by
  have hl : ∀ d : Fin 256, (Spec.lane h d).val = o + d.val := fun d => by
    show 256 * h.val + d.val = o + d.val; omega
  refine (shapeCast_ab_1ab_apply _ shapeCasts_S256x256_S1x256x256 u r d').trans ?_
  refine (head_apply o hs (k0_pay2 x0) (k0_pay3 x0 x1 x2) (k0_pay4 x3) (k0_pay5 x4) (Spec.lane h) hl r d').trans ?_
  show _ = Spec.Grow (fun k => x0 (ix3 (0 : Fin 1) r k)) (fun k => x1 (ix2 (0 : Fin 1) k)) (fun k => x2 (ix2 (0 : Fin 1) k)) x3 x4 (Spec.lane h d')
  rw [Spec.Grow_lane, pay4_eq, pay5_eq, pay2_apply]
  unfold Spec.Hrow
  refine congrArg (x0 (ix3 (0 : Fin 1) r (Spec.lane h d')) + ·) ?_
  refine congrArg (fun q => Spec.attn q x3 x4 d') (funext fun d => ?_)
  exact ln_apply x0 x1 x2 r (Spec.lane h d)

/-- The offsets of a whole load are all zero. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The output block is the block function: every piece agrees with it, and the pieces cover the block. -/
theorem out_apply (x0 : Vec Ideal S1x256x1024 .f32) (x1 x2 : Vec Ideal S1x1024 .f32) (x3 x4 : Vec Ideal S4096x256 .bf16)
    (y : S1x256x1024.Idx) : out0_5 x0 x1 x2 x3 x4 y = blockVal x0 x1 x2 x3 x4 y := by
  unfold out0_5
  simp only [View.ld_unit_zero (S := S1x256x1024) hz3, View.ld_unit_zero (S := S1x1024) hz2, View.ld_unit_zero (S := S4096x256) hz2]
  refine View.canon_apply_of_pieces (Val := Elt Ideal) (blockVal x0 x1 x2 x3 x4) _ ?_ y (cover0_5 _ _ _ _ y)
  intro p hp x
  simp only [List.mem_cons, List.not_mem_nil, or_false] at hp
  rcases hp with rfl | rfl | rfl | rfl
  · obtain ⟨u, r, d', rfl⟩ : ∃ (u : Fin 1) (r d' : Fin 256), x = ix3 u r d' := ⟨x 0, x 1, x 2, eq_ix3 x⟩
    show k0_pay1 (k0_pay10 (k0_pay2 x0) (k0_pay3 x0 x1 x2) (k0_pay4 x3) (k0_pay5 x4)) (ix3 u r d')
      = blockVal x0 x1 x2 x3 x4 (r0_6.emb (ix3 u r d'))
    rw [pay10_eq, emb_piece 768 _ u r d' (Spec.lane 3 d') (by show 256 * 3 + d'.val = 768 + d'.val; omega)]
    exact piece_apply 768 _ 3 rfl x0 x1 x2 x3 x4 u r d'
  · obtain ⟨u, r, d', rfl⟩ : ∃ (u : Fin 1) (r d' : Fin 256), x = ix3 u r d' := ⟨x 0, x 1, x 2, eq_ix3 x⟩
    show k0_pay9 (k0_pay2 x0) (k0_pay3 x0 x1 x2) (k0_pay4 x3) (k0_pay5 x4) (ix3 u r d')
      = blockVal x0 x1 x2 x3 x4 (r0_5.emb (ix3 u r d'))
    rw [pay9_eq, emb_piece 512 _ u r d' (Spec.lane 2 d') (by show 256 * 2 + d'.val = 512 + d'.val; omega)]
    exact piece_apply 512 _ 2 rfl x0 x1 x2 x3 x4 u r d'
  · obtain ⟨u, r, d', rfl⟩ : ∃ (u : Fin 1) (r d' : Fin 256), x = ix3 u r d' := ⟨x 0, x 1, x 2, eq_ix3 x⟩
    show k0_pay8 (k0_pay2 x0) (k0_pay3 x0 x1 x2) (k0_pay4 x3) (k0_pay5 x4) (ix3 u r d')
      = blockVal x0 x1 x2 x3 x4 (r0_4.emb (ix3 u r d'))
    rw [pay8_eq, emb_piece 256 _ u r d' (Spec.lane 1 d') (by show 256 * 1 + d'.val = 256 + d'.val; omega)]
    exact piece_apply 256 _ 1 rfl x0 x1 x2 x3 x4 u r d'
  · obtain ⟨u, r, d', rfl⟩ : ∃ (u : Fin 1) (r d' : Fin 256), x = ix3 u r d' := ⟨x 0, x 1, x 2, eq_ix3 x⟩
    show k0_pay7 (k0_pay2 x0) (k0_pay5 x4) (k0_pay6 x0 x1 x2 x3) (constant S256x256 .f32 0x00000000#32) (ix3 u r d')
      = blockVal x0 x1 x2 x3 x4 (r0_3.emb (ix3 u r d'))
    rw [pay7_eq, emb_piece 0 _ u r d' (Spec.lane 0 d') (by show 256 * 0 + d'.val = 0 + d'.val; omega)]
    exact piece_apply 0 _ 0 rfl x0 x1 x2 x3 x4 u r d'

end Cert.KernelIdeal.BlockValue

end
-- ==== Proof.KernelFinal.lean ====
/-
  From blocks to the array: the kernel's result array as one function of its arguments.

  The grid has 4 × 8 points; point (b, j) reads rows 256·j … 256·j + 255 of batch b of the activations, the whole scale
  and shift rows (the two vectors reshaped to 1 × 1024 before the call) and the whole matrices K and V (the two weight
  matrices, the second transposed, each cut into 4096 rows of 256 before the call), and writes back the same rows of
  the result. What a point writes back is the block function of its input blocks, and the block function of those
  blocks is the specification's G restricted to the point's rows, because row r of the input block is row 256·j + r of
  batch b of the argument. The 32 output blocks tile the array, so the array ends holding G.
-/
import proofs.«125311_j56023553409274_2_alg».proof.Proof.Gen.KernelIdeal.Value
import proofs.«125311_j56023553409274_2_alg».proof.Proof.KernelBlock
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)
open Cert.KernelIdeal.BlockValue

variable (m : (ℓ : Loc nD τ sig) → Buf (Elt Ideal) ℓ) (ρ : Dev nD → PrngReg)

/-- Grow depends on its row, scale, shift and lane only through their values. -/
theorem grow_congr (x x' g g' b b' : Fin 1024 → EReal) (K K' V V' : Spec.SW.Idx → EReal) (c c' : Fin 1024)
    (hx : ∀ k, x k = x' k) (hg : ∀ k, g k = g' k) (hb : ∀ k, b k = b' k) (hK : K = K') (hV : V = V') (hc : c.val = c'.val) :
    Spec.Grow x g b K V c = Spec.Grow x' g' b' K' V' c' := by
  obtain rfl : x = x' := funext hx
  obtain rfl : g = g' := funext hg
  obtain rfl : b = b' := funext hb
  obtain rfl : c = c' := Fin.ext hc
  subst hK hV
  rfl

/-- The index maps, decided over the 32 points: the activations' window moves with the output's, along the first two
    axes only; the other four windows stay at block 0; the output's block indices stay in range. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 3 ∧ win0_5.index t (1 : Fin 3) ≤ 7 :=
  (by decide +kernel : ∀ t : Fin grid0.N, _)

/-- Every block of the result is some point's. -/
theorem idx_onto : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-- What the region finds in the arrays the operations before it wrote: the scale and the shift as 1 × 1024 rows, and
    the two matrices cut into 4096 rows of 256 (the change of float format is the identity on the extended reals). -/
theorem V_v0 (c : Dev nD) : (V m c main_v0 : S1x1024.Idx → EReal)
    = shapeCast S1x1024 (m ((c : Thread nD τ).loc main_arg3) : S1024.Idx → EReal) shapeCasts_S1024_S1x1024 := by
  dsimp only [Gen.V, Gen.hostOps0]; after_results; rfl
theorem V_v1 (c : Dev nD) : (V m c main_v1 : S1x1024.Idx → EReal)
    = shapeCast S1x1024 (m ((c : Thread nD τ).loc main_arg4) : S1024.Idx → EReal) shapeCasts_S1024_S1x1024 := by
  dsimp only [Gen.V, Gen.hostOps0]; after_results; rfl

/-- K: the first weight matrix cut into 4096 rows of 256. -/
abbrev Kk (c : Dev nD) : S4096x256.Idx → EReal :=
  shapeCast S4096x256 (m ((c : Thread nD τ).loc main_arg1) : S1024x1024.Idx → EReal) shapeCasts_S1024x1024_S4096x256
/-- V: the second weight matrix transposed, then cut the same way. -/
abbrev Vk (c : Dev nD) : S4096x256.Idx → EReal :=
  shapeCast S4096x256 (transpose S1024x1024 [1, 0] (m ((c : Thread nD τ).loc main_arg2) : S1024x1024.Idx → EReal)
    transposes_S1024x1024_S1024x1024_1_0) shapeCasts_S1024x1024_S4096x256

theorem V_v3 (c : Dev nD) : (V m c main_v3 : S4096x256.Idx → EReal) = Kk m c := by
  dsimp only [Gen.V, Gen.hostOps0]; after_results; rfl
theorem V_v6 (c : Dev nD) : (V m c main_v6 : S4096x256.Idx → EReal) = Vk m c := by
  dsimp only [Gen.V, Gen.hostOps0]; after_results; rfl

/-- The result array: G of the arguments as launched. -/
def Gk (c : Dev nD) : S4x2048x1024.Idx → EReal :=
  Spec.G (m ((c : Thread nD τ).loc main_arg0) : S4x2048x1024.Idx → EReal) (Kk m c) (Vk m c)
    (m ((c : Thread nD τ).loc main_arg3) : S1024.Idx → EReal) (m ((c : Thread nD τ).loc main_arg4) : S1024.Idx → EReal)

/-- What point t writes back is block t of G. -/
theorem flushed_eq (c : Dev nD) (t : Fin cfg0.N) :
    (dats m 0 c).flushed 5 t = ((cfg0.win 5).blk t).view.read (Elt Ideal) (Gk m c) := by
  rw [Value.flushed5]
  obtain ⟨e00, e01, e02, e52, e10, e11, e20, e21, e30, e31, e40, e41, -, -⟩ := idx_facts t
  funext y
  show out0_5 (iblk m c 0 t) (iblk m c 1 t) (iblk m c 2 t) (iblk m c 3 t) (iblk m c 4 t) y = Gk m c (((cfg0.win 5).blk t).view.emb y)
  refine (out_apply (iblk m c 0 t) (iblk m c 1 t) (iblk m c 2 t) (iblk m c 3 t) (iblk m c 4 t) y).trans ?_
  obtain ⟨bb, T, cc, hi⟩ : ∃ (bb : Fin 4) (T : Fin 2048) (cc : Fin 1024), ((cfg0.win 5).blk t).view.emb y = ix3 bb T cc :=
    ⟨_, _, _, eq_ix3 _⟩
  obtain ⟨u, r, cy, rfl⟩ : ∃ (u : Fin 1) (r : Fin 256) (cy : Fin 1024), y = ix3 u r cy := ⟨y 0, y 1, y 2, eq_ix3 y⟩
  have hb : win0_5.index t (0 : Fin 3) * 1 + 1 * u.val = bb.val := congrArg Fin.val (congrFun hi 0)
  have hT : win0_5.index t (1 : Fin 3) * 256 + 1 * r.val = T.val := congrArg Fin.val (congrFun hi 1)
  have hc : win0_5.index t (2 : Fin 3) * 1024 + 1 * cy.val = cc.val := congrArg Fin.val (congrFun hi 2)
  rw [hi]
  show Spec.Grow (fun k => iblk m c 0 t (ix3 (0 : Fin 1) r k)) (fun k => iblk m c 1 t (ix2 (0 : Fin 1) k))
      (fun k => iblk m c 2 t (ix2 (0 : Fin 1) k)) (iblk m c 3 t) (iblk m c 4 t) cy
    = Spec.Grow (fun k => (m ((c : Thread nD τ).loc main_arg0) : S4x2048x1024.Idx → EReal) (ix3 bb T k))
      (fun k => (m ((c : Thread nD τ).loc main_arg3) : S1024.Idx → EReal) (ix1 k))
      (fun k => (m ((c : Thread nD τ).loc main_arg4) : S1024.Idx → EReal) (ix1 k)) (Kk m c) (Vk m c) cc
  have hu : u.val = 0 := by omega
  refine grow_congr _ _ _ _ _ _ _ _ _ _ _ _ ?_ ?_ ?_ ?_ ?_ ?_
  · intro k
    show V m c main_arg0 (((cfg0.win 0).blk t).view.emb (ix3 (0 : Fin 1) r k)) = _
    rw [V_main_arg0]
    refine congrArg _ (funext fun a => Fin.ext ?_)
    match a with
    | ⟨0, _⟩ => show win0_0.index t (0 : Fin 3) * 1 + 1 * 0 = bb.val; omega
    | ⟨1, _⟩ => show win0_0.index t (1 : Fin 3) * 256 + 1 * r.val = T.val; omega
    | ⟨2, _⟩ => show win0_0.index t (2 : Fin 3) * 1024 + 1 * k.val = k.val; omega
  · intro k
    show V m c main_v0 (((cfg0.win 1).blk t).view.emb (ix2 (0 : Fin 1) k)) = _
    rw [V_v0]
    refine shapeCast_apply _ _ _ _ ?_
    show (S1024.rowMajor (ix1 k)).val = (S1x1024.rowMajor (((cfg0.win 1).blk t).view.emb (ix2 (0 : Fin 1) k))).val
    rw [Shape.rowMajor_val_one, Shape.rowMajor_val_two]
    show k.val = (win0_1.index t (0 : Fin 2) * 1 + 1 * 0) * 1024 + (win0_1.index t (1 : Fin 2) * 1024 + 1 * k.val)
    omega
  · intro k
    show V m c main_v1 (((cfg0.win 2).blk t).view.emb (ix2 (0 : Fin 1) k)) = _
    rw [V_v1]
    refine shapeCast_apply _ _ _ _ ?_
    show (S1024.rowMajor (ix1 k)).val = (S1x1024.rowMajor (((cfg0.win 2).blk t).view.emb (ix2 (0 : Fin 1) k))).val
    rw [Shape.rowMajor_val_one, Shape.rowMajor_val_two]
    show k.val = (win0_2.index t (0 : Fin 2) * 1 + 1 * 0) * 1024 + (win0_2.index t (1 : Fin 2) * 1024 + 1 * k.val)
    omega
  · funext z
    show V m c main_v3 (((cfg0.win 3).blk t).view.emb z) = Kk m c z
    rw [V_v3]
    refine congrArg _ (funext fun a => Fin.ext ?_)
    match a with
    | ⟨0, _⟩ => show win0_3.index t (0 : Fin 2) * 4096 + 1 * (z 0).val = (z 0).val; omega
    | ⟨1, _⟩ => show win0_3.index t (1 : Fin 2) * 256 + 1 * (z 1).val = (z 1).val; omega
  · funext z
    show V m c main_v6 (((cfg0.win 4).blk t).view.emb z) = Vk m c z
    rw [V_v6]
    refine congrArg _ (funext fun a => Fin.ext ?_)
    match a with
    | ⟨0, _⟩ => show win0_4.index t (0 : Fin 2) * 4096 + 1 * (z 0).val = (z 0).val; omega
    | ⟨1, _⟩ => show win0_4.index t (1 : Fin 2) * 256 + 1 * (z 1).val = (z 1).val; omega
  · omega

/-- An index of the result is in point t's block iff each coordinate is in the block's range on its axis. -/
theorem mem_blk (t : Fin cfg0.N) (i : S4x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v7).slice (win0_5.rect t)).set ↔ _
  rw [View.set_slice_whole, Rect.mem_set_unit]
  exact Iff.rfl

/-- Every index of the result is in the block of the point (batch, row / 256). -/
theorem cover (i : S4x2048x1024.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  obtain ⟨t, ht⟩ := idx_onto ⟨(i 0).val, h0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- The result array after the run is G of the arguments. -/
theorem final (c : Dev nD) : (dats m 0 c).arrAt 5 cfg0.N = Gk m c :=
  (dats m 0 c).arrAt_eq_of_cover 5 (Gk m c) (fun t _ => flushed_eq m c t) (cover)

/-- The kernel's run: it ends with the result array at G of the arguments and the arguments unchanged. -/
theorem run : θ_run defs (onTc (τ := τ) (main (F := Ideal))) ⟨m, fun _ => 0, ρ⟩ fun r => ∀ c : Dev nD,
      r.2.mem ((c : Thread nD τ).loc main_v7) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference program's result is the specification's G.

  Stage by stage, each read at an index written by its coordinates: a row's sum divided by 1024 is the mean; the sum of
  the squared deviations divided by 1024 the variance; the normalised, scaled and shifted activations are ln of the row;
  reshaping 1024 lanes to 4 heads of 256 and exchanging the head and position axes puts lane 256·h + d of row (b, t) at
  (b, h, t, d); the first contraction over d is the score against row s of K; the maximum with zero, squared, contracted
  over s against V is attn; exchanging the axes back and flattening the heads puts (b, h, t, d') at (b, t, 256·h + d');
  adding the activations gives G. The sums start from the zero word, which is the real zero.
-/
import proofs.«125311_j56023553409274_2_alg».proof.Proof.Gen.ReferenceIdeal.Read
import proofs.«125311_j56023553409274_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S4x2048x1024, .f32⟩ : BufTy).Contents (Elt Ideal)) (x1 x2 : (⟨S1024x1024, .f32⟩ : BufTy).Contents (Elt Ideal))
  (x3 x4 : (⟨S1024, .f32⟩ : BufTy).Contents (Elt Ideal))

/-! ## The stages' index maps at indices written by coordinates -/

theorem i1 (b : Fin 4) (t : Fin 2048) (u : Fin 1) : idx_main_v1 (ix3 b t u) = ix2 b t :=
  funext fun a => by match a with | ⟨0, _⟩ => rfl | ⟨1, _⟩ => rfl
theorem i8 (b : Fin 4) (t : Fin 2048) (u : Fin 1) : idx_main_v8 (ix3 b t u) = ix2 b t :=
  funext fun a => by match a with | ⟨0, _⟩ => rfl | ⟨1, _⟩ => rfl
theorem i0 (b : Fin 4) (t : Fin 2048) (k : Fin 1024) : idx_main_v0 (ix2 b t) k = ix3 b t k :=
  funext fun a => by match a with | ⟨0, _⟩ => rfl | ⟨1, _⟩ => rfl | ⟨2, _⟩ => rfl
theorem i7 (b : Fin 4) (t : Fin 2048) (k : Fin 1024) : idx_main_v7 (ix2 b t) k = ix3 b t k :=
  funext fun a => by match a with | ⟨0, _⟩ => rfl | ⟨1, _⟩ => rfl | ⟨2, _⟩ => rfl
theorem i4 (b : Fin 4) (t : Fin 2048) (c : Fin 1024) : idx_main_v4 (ix3 b t c) = ix3 b t (0 : Fin 1) :=
  funext fun a => by match a with | ⟨0, _⟩ => rfl | ⟨1, _⟩ => rfl | ⟨2, _⟩ => rfl
theorem i11 (b : Fin 4) (t : Fin 2048) (c : Fin 1024) : idx_main_v11 (ix3 b t c) = ix3 b t (0 : Fin 1) :=
  funext fun a => by match a with | ⟨0, _⟩ => rfl | ⟨1, _⟩ => rfl | ⟨2, _⟩ => rfl
theorem i16 (b : Fin 4) (t : Fin 2048) (c : Fin 1024) : idx_main_v16 (ix3 b t c) = ix3 b t (0 : Fin 1) :=
  funext fun a => by match a with | ⟨0, _⟩ => rfl | ⟨1, _⟩ => rfl | ⟨2, _⟩ => rfl
theorem i19 (b : Fin 4) (t : Fin 2048) (c : Fin 1024) : idx_main_v19 (ix3 b t c) = ix3 (0 : Fin 1) (0 : Fin 1) c :=
  funext fun a => by match a with | ⟨0, _⟩ => rfl | ⟨1, _⟩ => rfl | ⟨2, _⟩ => rfl
theorem i22 (b : Fin 4) (t : Fin 2048) (c : Fin 1024) : idx_main_v22 (ix3 b t c) = ix3 (0 : Fin 1) (0 : Fin 1) c :=
  funext fun a => by match a with | ⟨0, _⟩ => rfl | ⟨1, _⟩ => rfl | ⟨2, _⟩ => rfl
theorem i18 (u v : Fin 1) (c : Fin 1024) : idx_main_v18 (ix3 u v c) = ix1 c :=
  funext fun a => by match a with | ⟨0, _⟩ => rfl
theorem i21 (u v : Fin 1) (c : Fin 1024) : idx_main_v21 (ix3 u v c) = ix1 c :=
  funext fun a => by match a with | ⟨0, _⟩ => rfl
theorem i25 (b h : Fin 4) (t : Fin 2048) (d : Fin 256) : idx_main_v25 (ix4 b h t d) = ix4 b t h d :=
  funext fun a => by match a with | ⟨0, _⟩ => rfl | ⟨1, _⟩ => rfl | ⟨2, _⟩ => rfl | ⟨3, _⟩ => rfl
theorem i33 (b : Fin 4) (t : Fin 2048) (h : Fin 4) (d : Fin 256) : idx_main_v33 (ix4 b t h d) = ix4 b h t d :=
  funext fun a => by match a with | ⟨0, _⟩ => rfl | ⟨1, _⟩ => rfl | ⟨2, _⟩ => rfl | ⟨3, _⟩ => rfl
theorem l29 (b h : Fin 4) (t : Fin 2048) (s : Fin 4096) (k : Fin 256) : lidx_main_v29 (ix4 b h t s) k = ix4 b h t k :=
  funext fun a => by match a with | ⟨0, _⟩ => rfl | ⟨1, _⟩ => rfl | ⟨2, _⟩ => rfl | ⟨3, _⟩ => rfl
theorem r29 (b h : Fin 4) (t : Fin 2048) (s : Fin 4096) (k : Fin 256) : ridx_main_v29 (ix4 b h t s) k = ix2 s k :=
  funext fun a => by match a with | ⟨0, _⟩ => rfl | ⟨1, _⟩ => rfl
theorem l32 (b h : Fin 4) (t : Fin 2048) (d : Fin 256) (k : Fin 4096) : lidx_main_v32 (ix4 b h t d) k = ix4 b h t k :=
  funext fun a => by match a with | ⟨0, _⟩ => rfl | ⟨1, _⟩ => rfl | ⟨2, _⟩ => rfl | ⟨3, _⟩ => rfl
theorem r32 (b h : Fin 4) (t : Fin 2048) (d : Fin 256) (k : Fin 4096) : ridx_main_v32 (ix4 b h t d) k = ix2 k d :=
  funext fun a => by match a with | ⟨0, _⟩ => rfl | ⟨1, _⟩ => rfl

/-- Head h, lane d of row (b, t) sits at lane 256·h + d of the row. -/
theorem i24 (b : Fin 4) (t : Fin 2048) (h : Fin 4) (d : Fin 256) : idx_main_v24 (ix4 b t h d) = ix3 b t (Spec.lane h d) :=
  funext fun a => Fin.ext (by
    have hb := b.isLt; have ht := t.isLt; have hh := h.isLt; have hd := d.isLt
    match a with
    | ⟨0, _⟩ => show (((b.val * 2048 + t.val) * 4 + h.val) * 256 + d.val) / 2097152 = b.val; omega
    | ⟨1, _⟩ => show (((b.val * 2048 + t.val) * 4 + h.val) * 256 + d.val) / 1024 % 2048 = t.val; omega
    | ⟨2, _⟩ => show (((b.val * 2048 + t.val) * 4 + h.val) * 256 + d.val) % 1024 = 256 * h.val + d.val; omega)

/-- Lane c of row (b, t) is lane c % 256 of head c / 256. -/
theorem i34 (b : Fin 4) (t : Fin 2048) (c : Fin 1024) :
    idx_main_v34 (ix3 b t c) = ix4 b t (⟨c.val / 256, by omega⟩ : Fin 4) (⟨c.val % 256, by omega⟩ : Fin 256) :=
  funext fun a => Fin.ext (by
    have hb := b.isLt; have ht := t.isLt; have hc := c.isLt
    match a with
    | ⟨0, _⟩ => show ((b.val * 2048 + t.val) * 1024 + c.val) / 2097152 = b.val; omega
    | ⟨1, _⟩ => show ((b.val * 2048 + t.val) * 1024 + c.val) / 1024 % 2048 = t.val; omega
    | ⟨2, _⟩ => show ((b.val * 2048 + t.val) * 1024 + c.val) / 256 % 4 = c.val / 256; omega
    | ⟨3, _⟩ => show ((b.val * 2048 + t.val) * 1024 + c.val) % 256 = c.val % 256; omega)

theorem lane_div_mod (c : Fin 1024) (h1 : c.val / 256 < 4) (h2 : c.val % 256 < 256) :
    Spec.lane ⟨c.val / 256, h1⟩ ⟨c.val % 256, h2⟩ = c :=
  Fin.ext (by show 256 * (c.val / 256) + c.val % 256 = c.val; omega)

/-! ## The stages -/

/-- The mean of row (b, t). -/
theorem mean_apply (b : Fin 4) (t : Fin 2048) (u : Fin 1) :
    val_main_v3 (F := Ideal) x0 (ix3 b t u) = Spec.mean (fun k => x0 (ix3 b t k)) := by
  simp only [val_main_v3_apply, val_main_v1_apply, i1, val_main_v0_apply, i0, val_main_v2_apply, val_main_cst_0_apply, val_main_cst_apply]
  show Ideal.div (Ideal.ofBits .f32 0x00000000#32 + ∑ k : Fin 1024, x0 (ix3 b t k)) (Ideal.ofBits .f32 0x44800000#32) = _
  rw [Ideal.ofBits_zero_f32, zero_add]
  rfl

/-- The variance of row (b, t). -/
theorem var_apply (b : Fin 4) (t : Fin 2048) (u : Fin 1) :
    val_main_v10 (F := Ideal) x0 (ix3 b t u) = Spec.var (fun k => x0 (ix3 b t k)) := by
  simp only [val_main_v10_apply, val_main_v8_apply, i8, val_main_v7_apply, i7, val_main_v9_apply, val_main_cst_2_apply, val_main_cst_1_apply,
    val_main_v6_apply, val_main_v5_apply, val_main_v4_apply, i4, mean_apply]
  show Ideal.div (Ideal.ofBits .f32 0x00000000#32 + ∑ k : Fin 1024, (x0 (ix3 b t k) - Spec.mean (fun k => x0 (ix3 b t k))) * (x0 (ix3 b t k) - Spec.mean (fun k => x0 (ix3 b t k))))
    (Ideal.ofBits .f32 0x44800000#32) = _
  rw [Ideal.ofBits_zero_f32, zero_add]
  rfl

/-- The normalised, scaled and shifted activations at (b, t, c). -/
theorem ln_apply (b : Fin 4) (t : Fin 2048) (c : Fin 1024) :
    val_main_v23 (F := Ideal) x0 x3 x4 (ix3 b t c)
      = Spec.ln (fun k => x0 (ix3 b t k)) (fun k => x3 (ix1 k)) (fun k => x4 (ix1 k)) c := by
  simp only [val_main_v23_apply, val_main_v20_apply, val_main_v22_apply, i22, val_main_v21_apply, i21, val_main_v19_apply, i19, val_main_v18_apply, i18,
    val_main_v17_apply, val_main_v16_apply, i16, val_main_v15_apply, val_main_v14_apply, val_main_v13_apply, val_main_cst_3_apply, var_apply,
    val_main_v12_apply, val_main_v11_apply, i11, mean_apply]
  rfl

/-- The head's lanes: entry (b, h, t, d) of the reshaped and exchanged activations. -/
theorem q_apply (b h : Fin 4) (t : Fin 2048) (d : Fin 256) :
    val_main_v25 (F := Ideal) x0 x3 x4 (ix4 b h t d)
      = Spec.ln (fun k => x0 (ix3 b t k)) (fun k => x3 (ix1 k)) (fun k => x4 (ix1 k)) (Spec.lane h d) := by
  rw [val_main_v25_apply, i25, val_main_v24_apply, i24, ln_apply]

/-- The scores. -/
theorem score_apply (b h : Fin 4) (t : Fin 2048) (s : Fin 4096) :
    val_main_v29 (F := Ideal) x0 x1 x3 x4 (ix4 b h t s)
      = Spec.score (fun d => Spec.ln (fun k => x0 (ix3 b t k)) (fun k => x3 (ix1 k)) (fun k => x4 (ix1 k)) (Spec.lane h d))
          (val_main_v26 (F := Ideal) x1) s := by
  rw [val_main_v29_apply]
  simp only [l29, r29, q_apply]
  rfl

/-- The rectified scores squared against V. -/
theorem attn_apply (b h : Fin 4) (t : Fin 2048) (d' : Fin 256) :
    val_main_v32 (F := Ideal) x0 x1 x2 x3 x4 (ix4 b h t d')
      = Spec.attn (fun d => Spec.ln (fun k => x0 (ix3 b t k)) (fun k => x3 (ix1 k)) (fun k => x4 (ix1 k)) (Spec.lane h d))
          (val_main_v26 (F := Ideal) x1) (val_main_v28 (F := Ideal) x2) d' := by
  rw [val_main_v32_apply]
  simp only [l32, r32, val_main_v31_apply, val_main_v30_apply, val_main_call0_v0_apply, val_main_call0_cst_apply, score_apply]
  rfl

/-- The reference's result is G of its arguments, with K and V the two weight matrices as it cuts them. -/
theorem ref_eq :
    val_main_v35 (F := Ideal) x0 x1 x2 x3 x4
      = Spec.G x0 (val_main_v26 (F := Ideal) x1) (val_main_v28 (F := Ideal) x2) x3 x4 := by
  funext i
  obtain ⟨b, t, c, rfl⟩ : ∃ (b : Fin 4) (t : Fin 2048) (c : Fin 1024), i = ix3 b t c := ⟨i 0, i 1, i 2, eq_ix3 i⟩
  rw [val_main_v35_apply, val_main_v34_apply, i34, val_main_v33_apply, i33, attn_apply, Spec.G_ix3]
  unfold Spec.Grow Spec.Hrow
  rw [lane_div_mod]
  rfl

end Cert.ReferenceIdeal.RefValue

end
-- ==== Proof.lean ====
/- The claim of this certificate: a fused "normalise, then four heads of rectified-squared attention against fixed
   weights, plus the residual" kernel computes, on the extended reals, what its plain reference computes.

   Both programs normalise every row of the 4 × 2048 × 1024 activations (mean and variance by the quotient by 1024, the
   reciprocal square root of the variance plus ε, a scale and a shift per lane), split the 1024 lanes into four heads of
   256, take each head's scores against the 4096 rows of K (the first weight matrix cut into rows of 256), keep the
   maximum with zero, square it, weight the 4096 rows of V (the second weight matrix transposed, cut the same way) by
   it, and add the result to the activations. The kernel does this for 256 rows at a time on a 4 × 8 grid with one
   product per contraction; the reference does it for the whole array with the heads as an axis. Neither side splits a
   sum differently from the other, no constant is folded and every literal is the same word on both sides, so the two
   results are equal as extended reals for all inputs: the precondition is not needed for the equality.

   Proof/Spec.lean states the common function G; Proof/KernelRow.lean, KernelHead.lean, KernelBlock.lean and
   KernelFinal.lean show that the kernel's result array ends at G of its arguments (the normalisation and one head read
   at an index, the four stored pieces as one function of the block index, the 32 blocks tiling the array);
   Proof/RefValue.lean shows the same of the reference. The three frames are the programs' runs with the results
   dropped, and the kernel's idealization rewrote nothing. -/
import proofs.«125311_j56023553409274_2_alg».proof.Defs
import proofs.«125311_j56023553409274_2_alg».proof.Proof.Gen.Kernel
import proofs.«125311_j56023553409274_2_alg».proof.Proof.Gen.Kernel.Skeleton
import proofs.«125311_j56023553409274_2_alg».proof.Proof.Gen.Kernel.Launch
import proofs.«125311_j56023553409274_2_alg».proof.Proof.Gen.Kernel.Points
import proofs.«125311_j56023553409274_2_alg».proof.Proof.Gen.Kernel.Frame
import proofs.«125311_j56023553409274_2_alg».proof.Proof.Gen.KernelIdeal
import proofs.«125311_j56023553409274_2_alg».proof.Proof.Gen.KernelIdeal.Skeleton
import proofs.«125311_j56023553409274_2_alg».proof.Proof.Gen.KernelIdeal.Launch
import proofs.«125311_j56023553409274_2_alg».proof.Proof.Gen.KernelIdeal.Points
import proofs.«125311_j56023553409274_2_alg».proof.Proof.Gen.KernelIdeal.Frame
import proofs.«125311_j56023553409274_2_alg».proof.Proof.Gen.ReferenceIdeal
import proofs.«125311_j56023553409274_2_alg».proof.Proof.Gen.Pre_finite_inputs
import proofs.«125311_j56023553409274_2_alg».proof.Proof.Gen.KernelIdeal.Value
import proofs.«125311_j56023553409274_2_alg».proof.Proof.Gen.ReferenceIdeal.Run
import proofs.«125311_j56023553409274_2_alg».proof.Proof.Gen.ReferenceIdeal.Read
import proofs.«125311_j56023553409274_2_alg».proof.Proof.KernelFinal
import proofs.«125311_j56023553409274_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with their result arrays at G of the arguments: the
    kernel's K and V are the reference's, the same reshape (and transpose) of the same weight matrices. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v35_eq, Cert.ReferenceIdeal.RefValue.ref_eq, h0, h1, h2, h3, h4]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
